-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256 .f32) (main_arg8 : FVec F S256x256 .f32) (main_arg9 : FVec F S256x256 .f32) (main_arg10 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256x256 .f32) (main_arg7 : FVec F S256 .f32) (main_arg8 : FVec F S256x256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S256x256 .f32) (main_arg3 : FVec F S256x256 .f32) (main_arg4 : FVec F S256 .f32) (main_arg5 : FVec F S256x256 .f32) (main_arg6 : FVec F S256x256 .f32) (main_arg7 : FVec F S256 .f32) (main_arg8 : FVec F S256x256 .f32) (main_arg9 : FVec F S256x256 .f32) (main_arg10 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S256x256 : Shape := ⟨2, ![256, 256]⟩
abbrev S256 : Shape := ⟨1, ![256]⟩
abbrev S256x768 : Shape := ⟨2, ![256, 768]⟩
abbrev S256x512 : Shape := ⟨2, ![256, 512]⟩
abbrev S512 : Shape := ⟨1, ![512]⟩
abbrev S1x512 : Shape := ⟨2, ![1, 512]⟩
abbrev S1x256 : Shape := ⟨2, ![1, 256]⟩
abbrev S2048x256 : Shape := ⟨2, ![2048, 256]⟩
abbrev S2048x768 : Shape := ⟨2, ![2048, 768]⟩
abbrev S2048x512 : Shape := ⟨2, ![2048, 512]⟩

abbrev nBuf : Space → Nat
  | .hbm => 20
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x768, .f32⟩
  | .hbm, ⟨12, _⟩ => ⟨S256x768, .bf16⟩
  | .hbm, ⟨13, _⟩ => ⟨S256x512, .f32⟩
  | .hbm, ⟨14, _⟩ => ⟨S256x512, .bf16⟩
  | .hbm, ⟨15, _⟩ => ⟨S256x256, .bf16⟩
  | .hbm, ⟨16, _⟩ => ⟨S512, .f32⟩
  | .hbm, ⟨17, _⟩ => ⟨S1x512, .f32⟩
  | .hbm, ⟨18, _⟩ => ⟨S1x256, .f32⟩
  | .hbm, ⟨19, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x768, .bf16⟩
  | .local _ .vmem, ⟨5, _⟩ => ⟨S256x512, .bf16⟩
  | .local _ .vmem, ⟨6, _⟩ => ⟨S256x256, .bf16⟩
  | .local _ .vmem, ⟨7, _⟩ => ⟨S1x512, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x256_S256x256_S256x256_S256x768_d1 : Shape.Concatenates [S256x256, S256x256, S256x256] S256x768 1
  bitsLt_bf16_f32 : FTy.bits .bf16 < FTy.bits .f32
  concatenates_S256x256_S256x256_S256x512_d1 : Shape.Concatenates [S256x256, S256x256] S256x512 1
  concatenates_S256_S256_S512_d0 : Shape.Concatenates [S256, S256] S512 0
  bcast_S512_S1x512_1 : S512.BroadcastsInDim S1x512 (![1] : Fin 1 → Fin S1x512.rank)
  bcast_S256_S1x256_1 : S256.BroadcastsInDim S1x256 (![1] : Fin 1 → Fin S1x256.rank)
  inb_S2048x256_S2048x256_0_0 : ∀ a, (![0, 0] : Fin 2 → Nat) a + S2048x256.size a ≤ S2048x256.size a
  h_S2048x256 : 0 < S2048x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  slices_S2048x512_o0_0_S2048x256 : S2048x512.Slices ![0, 0] S2048x256
  slices_S2048x512_o0_256_S2048x256 : S2048x512.Slices ![0, 256] S2048x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S1x512_o0_0_S1x256 : S1x512.Slices ![0, 0] S1x256
  slices_S1x512_o0_256_S1x256 : S1x512.Slices ![0, 256] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x256_S256x768_S2048x768_1_0_0_1_n_n_wf : DotDims.WF S2048x256 S256x768 S2048x768 [1] [0] [0] [1] [] []
  dot_S2048x256_S256x512_S2048x512_1_0_0_1_n_n_wf : DotDims.WF S2048x256 S256x512 S2048x512 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S256x768 : Shape := ⟨2, ![256, 768]⟩
abbrev S65536x768 : Shape := ⟨2, ![65536, 768]⟩
abbrev S256x512 : Shape := ⟨2, ![256, 512]⟩
abbrev S65536x512 : Shape := ⟨2, ![65536, 512]⟩
abbrev S1x256 : Shape := ⟨2, ![1, 256]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x768, .f32⟩
  | .hbm, ⟨12, _⟩ => ⟨S65536x768, .f32⟩
  | .hbm, ⟨13, _⟩ => ⟨S65536x256, .f32⟩
  | .hbm, ⟨14, _⟩ => ⟨S65536x256, .f32⟩
  | .hbm, ⟨15, _⟩ => ⟨S65536x256, .f32⟩
  | .hbm, ⟨16, _⟩ => ⟨S256x512, .f32⟩
  | .hbm, ⟨17, _⟩ => ⟨S65536x512, .f32⟩
  | .hbm, ⟨18, _⟩ => ⟨S65536x256, .f32⟩
  | .hbm, ⟨19, _⟩ => ⟨S65536x256, .f32⟩
  | .hbm, ⟨20, _⟩ => ⟨S65536x256, .f32⟩
  | .hbm, ⟨21, _⟩ => ⟨S1x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S_, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S1x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S1x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S_, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  concatenates_S256x256_S256x256_S256x256_S256x768_d1 : Shape.Concatenates [S256x256, S256x256, S256x256] S256x768 1
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  concatenates_S256x256_S256x256_S256x512_d1 : Shape.Concatenates [S256x256, S256x256] S256x512 1
  slices_S65536x512_S65536x256_0_0 : S65536x512.Slices ![0, 0] S65536x256
  slices_S65536x512_S65536x256_0_256 : S65536x512.Slices ![0, 256] S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  dot_S65536x256_S256x768_S65536x768_1_0_0_1_n_n_wf : DotDims.WF S65536x256 S256x768 S65536x768 [1] [0] [0] [1] [] []
  dot_S65536x256_S256x512_S65536x512_1_0_0_1_n_n_wf : DotDims.WF S65536x256 S256x512 S65536x512 [1] [0] [0] [1] [] []
  dot_S65536x256_S256x256_S65536x256_1_0_0_1_n_n_wf : DotDims.WF S65536x256 S256x256 S65536x256 [1] [0] [0] [1] [] []

variable [Facts₀]

def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.BitsFrame.lean ====
/-
  The frame of the GRU-cell kernel: it runs to the end at every grid point, faults nowhere, and leaves its eleven
  argument arrays as it found them.

  Before the region eight host operations lay out the operands: the three input-side weight matrices side by side
  as one [256, 768] matrix, the two hidden-side ones as one [256, 512] matrix, the candidate's hidden-side matrix
  alone, each in the narrower float format; the update and reset biases end to end as one row [1, 512]; the
  candidate's bias as a row [1, 256]. None of them writes an argument. The region has 32 points; point t reads rows
  2048·t … 2048·t + 2047 of x and of h_prev, reads the five laid-out operands whole (their block never moves), and
  writes the same 2048 rows of the result. The body loads its seven input blocks whole, computes one [2048, 256]
  value from them, and stores it over the whole output block; it keeps nothing between points.

  So after the body at point t the output block is one function of the seven input blocks (`blockOut`), every input
  block is still its array's block, and the final result array is that function's values block by block.
-/
import proofs.«141474_j28389733827226_2_alg».proof.Proof.Gen.Kernel.Launch
import proofs.«141474_j28389733827226_2_alg».proof.Proof.Gen.Kernel.Skeleton
import proofs.«141474_j28389733827226_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Every buffer of a core when the region is entered: the launch contents carried through the eight host
    operations in order. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program up to the region is those eight operations, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes one fresh result (the laid-out matrices, rows and their intermediate forms), never an
    argument: the region finds every argument array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## Blocks -/

/-- The block of window `w`'s array that point `t` works on, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point: freshly fetched where the block index
    moved, left in place by the body where it did not. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- At a final state where every array of the region holds what the proof data computes and every other buffer what
    the region found: x and h_prev are input windows' arrays (unchanged by the region), the nine weight and bias
    arguments are staged by no window (only their laid-out copies are), and the region found all eleven as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- So a run ending there is a run that leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## What the body leaves in the output block -/

abbrev rRows : Rect S2048x256 := Rect.unit (s := S2048x256) ![0, 0] S2048x256.size inb_S2048x256_S2048x256_0_0
abbrev rWx : Rect S256x768 := Rect.unit (s := S256x768) ![0, 0] S256x768.size inb_S256x768_S256x768_0_0
abbrev rUzr : Rect S256x512 := Rect.unit (s := S256x512) ![0, 0] S256x512.size inb_S256x512_S256x512_0_0
abbrev rUh : Rect S256x256 := Rect.unit (s := S256x256) ![0, 0] S256x256.size inb_S256x256_S256x256_0_0
abbrev rBzr : Rect S1x512 := Rect.unit (s := S1x512) ![0, 0] S1x512.size inb_S1x512_S1x512_0_0
abbrev rBh : Rect S1x256 := Rect.unit (s := S1x256) ![0, 0] S1x256.size inb_S1x256_S1x256_0_0

/-- The output block after the body, from the seven input blocks: the one store's value — z·h + (1 − z)·ĥ, with the
    update gate z, the candidate ĥ (which holds the reset gate) and 1 − z each computed from the loaded blocks — laid
    over the whole block. -/
def blockOut (x0 : Vec F S2048x256 .f32) (x1 : Vec F S2048x256 .f32) (x2 : Vec F S256x768 .bf16) (x3 : Vec F S256x512 .bf16) (x4 : Vec F S256x256 .bf16) (x5 : Vec F S1x512 .f32) (x6 : Vec F S1x256 .f32) : Vec F S2048x256 .f32 :=
  View.canon [⟨rRows, k0_pay1
    (k0_pay6 (View.ld x0 rRows) (View.ld x1 rRows) (View.ld x2 rWx) (View.ld x3 rUzr) (View.ld x4 rUh) (View.ld x5 rBzr) (View.ld x6 rBh))
    (k0_pay7 (View.ld x0 rRows) (View.ld x1 rRows) (View.ld x2 rWx) (View.ld x3 rUzr) (View.ld x5 rBzr))
    (k0_pay8 (View.ld x0 rRows) (View.ld x1 rRows) (View.ld x2 rWx) (View.ld x3 rUzr) (View.ld x5 rBzr))⟩]

/-- The one store covers the block. -/
theorem cover_out (p0 : Vec F S2048x256 .f32) (y : S2048x256.Idx) :
    ∃ pc ∈ ([⟨rRows, p0⟩] : List (View.Piece (Elt F) S2048x256 .f32)), y ∈ pc.1.set :=
  View.cover_of_tiled [⟨rRows, p0⟩] S2048x256.size (by rfl) y

/-! ## The body's triple -/

set_option maxHeartbeats 1000000 in
/-- On whole buffers, the seven inputs' at contents `x·` and the output's at anything, the body runs to its end
    holding the inputs' as they were and the output's at `blockOut` of them. -/
theorem sound_kernel (c : Dev nD) (E : Set ℕ) (i : grid0.Coords) (a1 : Memref sig .tc .vmem S2048x256 .f32) (h1 : a1.IsWhole) (a2 : Memref sig .tc .vmem S2048x256 .f32) (h2 : a2.IsWhole) (a3 : Memref sig .tc .vmem S256x768 .bf16) (h3 : a3.IsWhole) (a4 : Memref sig .tc .vmem S256x512 .bf16) (h4 : a4.IsWhole) (a5 : Memref sig .tc .vmem S256x256 .bf16) (h5 : a5.IsWhole) (a6 : Memref sig .tc .vmem S1x512 .f32) (h6 : a6.IsWhole) (a7 : Memref sig .tc .vmem S1x256 .f32) (h7 : a7.IsWhole) (a8 : Memref sig .tc .vmem S2048x256 .f32) (h8 : a8.IsWhole)
    (x0 : Vec F S2048x256 .f32) (x1 : Vec F S2048x256 .f32) (x2 : Vec F S256x768 .bf16) (x3 : Vec F S256x512 .bf16) (x4 : Vec F S256x256 .bf16) (x5 : Vec F S1x512 .f32) (x6 : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (blockOut x0 x1 x2 x3 x4 x5 x6)) -∗ K ⟨⟩))
      ⊢ wp frame (wpE (defs₀ (F := F)) Variants.none c none) E (cc0__gru_kernel i a1 h1 a2 h2 a3 h3 a4 h4 a5 h5 a6 h6 a7 h7 a8 h8) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The proof data -/

/-- On core `c`: the arrays as the region finds them; after the body at point `t` each input buffer at its block and
    the output buffer at `blockOut` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = blockOut (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body at a point -/

/-- What the body is handed at point `t`: the eight current staging buffers, the inputs' holding what the pipeline
    left there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and at the end every
    array of the region holds what the proof data computes — the result array the blocks the body wrote — and every
    other buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Frame

end
-- ==== Proof.IdealFrame.lean ====
/-
  The frame of the GRU-cell kernel: it runs to the end at every grid point, faults nowhere, and leaves its eleven
  argument arrays as it found them.

  Before the region eight host operations lay out the operands: the three input-side weight matrices side by side
  as one [256, 768] matrix, the two hidden-side ones as one [256, 512] matrix, the candidate's hidden-side matrix
  alone, each in the narrower float format; the update and reset biases end to end as one row [1, 512]; the
  candidate's bias as a row [1, 256]. None of them writes an argument. The region has 32 points; point t reads rows
  2048·t … 2048·t + 2047 of x and of h_prev, reads the five laid-out operands whole (their block never moves), and
  writes the same 2048 rows of the result. The body loads its seven input blocks whole, computes one [2048, 256]
  value from them, and stores it over the whole output block; it keeps nothing between points.

  So after the body at point t the output block is one function of the seven input blocks (`blockOut`), every input
  block is still its array's block, and the final result array is that function's values block by block.
-/
import proofs.«141474_j28389733827226_2_alg».proof.Proof.Gen.KernelIdeal.Launch
import proofs.«141474_j28389733827226_2_alg».proof.Proof.Gen.KernelIdeal.Skeleton
import proofs.«141474_j28389733827226_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Every buffer of a core when the region is entered: the launch contents carried through the eight host
    operations in order. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program up to the region is those eight operations, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes one fresh result (the laid-out matrices, rows and their intermediate forms), never an
    argument: the region finds every argument array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## Blocks -/

/-- The block of window `w`'s array that point `t` works on, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point: freshly fetched where the block index
    moved, left in place by the body where it did not. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- At a final state where every array of the region holds what the proof data computes and every other buffer what
    the region found: x and h_prev are input windows' arrays (unchanged by the region), the nine weight and bias
    arguments are staged by no window (only their laid-out copies are), and the region found all eleven as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- So a run ending there is a run that leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## What the body leaves in the output block -/

abbrev rRows : Rect S2048x256 := Rect.unit (s := S2048x256) ![0, 0] S2048x256.size inb_S2048x256_S2048x256_0_0
abbrev rWx : Rect S256x768 := Rect.unit (s := S256x768) ![0, 0] S256x768.size inb_S256x768_S256x768_0_0
abbrev rUzr : Rect S256x512 := Rect.unit (s := S256x512) ![0, 0] S256x512.size inb_S256x512_S256x512_0_0
abbrev rUh : Rect S256x256 := Rect.unit (s := S256x256) ![0, 0] S256x256.size inb_S256x256_S256x256_0_0
abbrev rBzr : Rect S1x512 := Rect.unit (s := S1x512) ![0, 0] S1x512.size inb_S1x512_S1x512_0_0
abbrev rBh : Rect S1x256 := Rect.unit (s := S1x256) ![0, 0] S1x256.size inb_S1x256_S1x256_0_0

/-- The output block after the body, from the seven input blocks: the one store's value — z·h + (1 − z)·ĥ, with the
    update gate z, the candidate ĥ (which holds the reset gate) and 1 − z each computed from the loaded blocks — laid
    over the whole block. -/
def blockOut (x0 : Vec F S2048x256 .f32) (x1 : Vec F S2048x256 .f32) (x2 : Vec F S256x768 .bf16) (x3 : Vec F S256x512 .bf16) (x4 : Vec F S256x256 .bf16) (x5 : Vec F S1x512 .f32) (x6 : Vec F S1x256 .f32) : Vec F S2048x256 .f32 :=
  View.canon [⟨rRows, k0_pay1
    (k0_pay6 (View.ld x0 rRows) (View.ld x1 rRows) (View.ld x2 rWx) (View.ld x3 rUzr) (View.ld x4 rUh) (View.ld x5 rBzr) (View.ld x6 rBh))
    (k0_pay7 (View.ld x0 rRows) (View.ld x1 rRows) (View.ld x2 rWx) (View.ld x3 rUzr) (View.ld x5 rBzr))
    (k0_pay8 (View.ld x0 rRows) (View.ld x1 rRows) (View.ld x2 rWx) (View.ld x3 rUzr) (View.ld x5 rBzr))⟩]

/-- The one store covers the block. -/
theorem cover_out (p0 : Vec F S2048x256 .f32) (y : S2048x256.Idx) :
    ∃ pc ∈ ([⟨rRows, p0⟩] : List (View.Piece (Elt F) S2048x256 .f32)), y ∈ pc.1.set :=
  View.cover_of_tiled [⟨rRows, p0⟩] S2048x256.size (by rfl) y

/-! ## The body's triple -/

set_option maxHeartbeats 1000000 in
/-- On whole buffers, the seven inputs' at contents `x·` and the output's at anything, the body runs to its end
    holding the inputs' as they were and the output's at `blockOut` of them. -/
theorem sound_kernel (c : Dev nD) (E : Set ℕ) (i : grid0.Coords) (a1 : Memref sig .tc .vmem S2048x256 .f32) (h1 : a1.IsWhole) (a2 : Memref sig .tc .vmem S2048x256 .f32) (h2 : a2.IsWhole) (a3 : Memref sig .tc .vmem S256x768 .bf16) (h3 : a3.IsWhole) (a4 : Memref sig .tc .vmem S256x512 .bf16) (h4 : a4.IsWhole) (a5 : Memref sig .tc .vmem S256x256 .bf16) (h5 : a5.IsWhole) (a6 : Memref sig .tc .vmem S1x512 .f32) (h6 : a6.IsWhole) (a7 : Memref sig .tc .vmem S1x256 .f32) (h7 : a7.IsWhole) (a8 : Memref sig .tc .vmem S2048x256 .f32) (h8 : a8.IsWhole)
    (x0 : Vec F S2048x256 .f32) (x1 : Vec F S2048x256 .f32) (x2 : Vec F S256x768 .bf16) (x3 : Vec F S256x512 .bf16) (x4 : Vec F S256x256 .bf16) (x5 : Vec F S1x512 .f32) (x6 : Vec F S1x256 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (blockOut x0 x1 x2 x3 x4 x5 x6)) -∗ K ⟨⟩))
      ⊢ wp frame (wpE (defs₀ (F := F)) Variants.none c none) E (cc0__gru_kernel i a1 h1 a2 h2 a3 h3 a4 h4 a5 h5 a6 h6 a7 h7 a8 h8) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The proof data -/

/-- On core `c`: the arrays as the region finds them; after the body at point `t` each input buffer at its block and
    the output buffer at `blockOut` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = blockOut (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body at a point -/

/-- What the body is handed at point `t`: the eight current staging buffers, the inputs' holding what the pipeline
    left there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and at the end every
    array of the region holds what the proof data computes — the result array the blocks the body wrote — and every
    other buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Frame

end
-- ==== Proof.GruCell.lean ====
/-
  The GRU cell, entry by entry, over the extended reals.

  For a batch of n rows, x and h are [n, 256]; Wx is the three input-side weight matrices side by side, [256, 768]
  (update, reset, candidate, 256 columns each); Uzr the update and reset hidden-side matrices side by side,
  [256, 512]; Uh the candidate's hidden-side matrix, [256, 256]; bz, br, bh the three biases. At row R, column q:

      z  = σ( Σₖ x[R,k]·Wx[k, q]       + Σₖ h[R,k]·Uzr[k, q]       + bz[q] )
      r  = σ( Σₖ x[R,k]·Wx[k, 256 + q] + Σₖ h[R,k]·Uzr[k, 256 + q] + br[q] )
      ĥ  = tanh( Σₖ x[R,k]·Wx[k, 512 + q] + Σₖ (r[R,k]·h[R,k])·Uh[k, q] + bh[q] )
      out = z·h[R,q] + (1 − z)·ĥ

  with σ t = 1 / (1 + e^(−t)). Row R of the result depends on x and h only through their row R: that is why the
  cell of a block of rows is the block of the cell.
-/
import Idealize.ShloMosaic.PureOps.Ideal
import Idealize.ShloMosaic.Lib.ValueIdx

noncomputable section

open scoped BigOperators

namespace Cert.Gru

open Idealize.ShloMosaic Idealize.ShloMosaic.ValueIdx

/-- Column `o + q` of a matrix with `w` columns: column `q` of the gate whose columns start at `o`. -/
def col (w o : Nat) (h : o + 256 ≤ w) (q : Fin 256) : Fin w := ⟨o + q.val, by have := q.isLt; omega⟩

theorem col_val (w o : Nat) (h : o + 256 ≤ w) (q : Fin 256) : (col w o h q).val = o + q.val := rfl

variable {n : Nat}

/-- Row `R` of `x` against column `o + q` of the [256, w] matrix `W`. -/
def proj {w : Nat} (x : (⟨2, ![n, 256]⟩ : Shape).Idx → EReal) (W : (⟨2, ![256, w]⟩ : Shape).Idx → EReal)
    (o : Nat) (h : o + 256 ≤ w) (R : Fin n) (q : Fin 256) : EReal :=
  ∑ k : Fin 256, x (ix2 R k) * W (ix2 k (col w o h q))

/-- A gate whose columns start at `o` in both fused matrices: σ of the two projections plus the bias. -/
def gate (x hp : (⟨2, ![n, 256]⟩ : Shape).Idx → EReal) (Wx : (⟨2, ![256, 768]⟩ : Shape).Idx → EReal)
    (Uzr : (⟨2, ![256, 512]⟩ : Shape).Idx → EReal) (b : Fin 256 → EReal)
    (o : Nat) (h3 : o + 256 ≤ 768) (h2 : o + 256 ≤ 512) (R : Fin n) (q : Fin 256) : EReal :=
  Ideal.logistic (proj x Wx o h3 R q + proj hp Uzr o h2 R q + b q)

/-- The candidate state: tanh of the input-side projection, the reset-gated hidden row against `Uh`, and the bias. -/
def cand (x hp : (⟨2, ![n, 256]⟩ : Shape).Idx → EReal) (Wx : (⟨2, ![256, 768]⟩ : Shape).Idx → EReal)
    (Uzr : (⟨2, ![256, 512]⟩ : Shape).Idx → EReal) (Uh : (⟨2, ![256, 256]⟩ : Shape).Idx → EReal)
    (br bh : Fin 256 → EReal) (R : Fin n) (q : Fin 256) : EReal :=
  Ideal.tanh (proj x Wx 512 (by norm_num) R q
    + (∑ k : Fin 256, (gate x hp Wx Uzr br 256 (by norm_num) (by norm_num) R k * hp (ix2 R k)) * Uh (ix2 k q))
    + bh q)

/-- The number one as both programs spell it. -/
def one : EReal := Ideal.ofBits .f32 0x3F800000#32

/-- The new hidden state at row `R`, column `q`. -/
def cell (x hp : (⟨2, ![n, 256]⟩ : Shape).Idx → EReal) (Wx : (⟨2, ![256, 768]⟩ : Shape).Idx → EReal)
    (Uzr : (⟨2, ![256, 512]⟩ : Shape).Idx → EReal) (Uh : (⟨2, ![256, 256]⟩ : Shape).Idx → EReal)
    (bz br bh : Fin 256 → EReal) (R : Fin n) (q : Fin 256) : EReal :=
  gate x hp Wx Uzr bz 0 (by norm_num) (by norm_num) R q * hp (ix2 R q)
    + (one - gate x hp Wx Uzr bz 0 (by norm_num) (by norm_num) R q) * cand x hp Wx Uzr Uh br bh R q

/-- The cell at a row only reads that row of x and of h: two batches that agree on a row give the same result there,
    whatever their sizes. -/
theorem cell_congr_row {n' : Nat} (x hp : (⟨2, ![n, 256]⟩ : Shape).Idx → EReal) (x' hp' : (⟨2, ![n', 256]⟩ : Shape).Idx → EReal)
    (Wx : (⟨2, ![256, 768]⟩ : Shape).Idx → EReal) (Uzr : (⟨2, ![256, 512]⟩ : Shape).Idx → EReal)
    (Uh : (⟨2, ![256, 256]⟩ : Shape).Idx → EReal) (bz br bh : Fin 256 → EReal) (R : Fin n) (R' : Fin n')
    (hx : ∀ k : Fin 256, x' (ix2 R' k) = x (ix2 R k)) (hh : ∀ k : Fin 256, hp' (ix2 R' k) = hp (ix2 R k)) (q : Fin 256) :
    cell x' hp' Wx Uzr Uh bz br bh R' q = cell x hp Wx Uzr Uh bz br bh R q := by
  unfold cell cand gate proj
  simp only [hx, hh]

/-- The same cell from operands that agree entry by entry. -/
theorem cell_congr (x hp : (⟨2, ![n, 256]⟩ : Shape).Idx → EReal)
    (Wx Wx' : (⟨2, ![256, 768]⟩ : Shape).Idx → EReal) (Uzr Uzr' : (⟨2, ![256, 512]⟩ : Shape).Idx → EReal)
    (Uh Uh' : (⟨2, ![256, 256]⟩ : Shape).Idx → EReal) (bz bz' br br' bh bh' : Fin 256 → EReal)
    (hW : Wx' = Wx) (hU : Uzr' = Uzr) (hUh : Uh' = Uh) (hz : bz' = bz) (hr : br' = br) (hb : bh' = bh) (R : Fin n) (q : Fin 256) :
    cell x hp Wx' Uzr' Uh' bz' br' bh' R q = cell x hp Wx Uzr Uh bz br bh R q := by
  subst hW hU hUh hz hr hb; rfl

end Cert.Gru

end
-- ==== Proof.BlockIsCell.lean ====
/-
  What the body leaves in the output block, entry by entry, is the GRU cell of the seven input blocks.

  The body multiplies the x block by the three input-side matrices laid side by side and reads the three gates'
  column ranges out of the product, does the same with the h block and the two hidden-side matrices, reads the update
  and reset biases out of the two halves of one row and the candidate's bias out of another, and applies the logistic
  function and tanh as single operations. Read at row p, column q of the block: each product is the sum over the 256
  contracted entries, each column range shifts the column, each bias row forgets the row, and a change of float
  format changes nothing.
-/
import proofs.«141474_j28389733827226_2_alg».proof.Proof.IdealFrame
import proofs.«141474_j28389733827226_2_alg».proof.Proof.GruCell
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.AsCell

open Cert.KernelIdeal Cert.KernelIdeal.Gen Idealize.ShloMosaic Idealize.ShloMosaic.ValueIdx

theorem hz : (![0, 0] : Fin 2 → Nat) = fun _ => 0 := funext fun a => by fin_cases a <;> rfl

/-- The row coordinate of the left operand's index is the output's row. -/
theorem prod768_row (i : S2048x768.Idx) (κ : dot_S2048x256_S256x768_S2048x768_1_0_0_1_n_n.contr.Idx) : (dot_S2048x256_S256x768_S2048x768_1_0_0_1_n_n.lhsIdx i κ 0).val = (i 0).val := by
  unfold DotDims.lhsIdx
  rw [dif_neg (show ¬(0 : Fin S2048x256.rank) ∈ dot_S2048x256_S256x768_S2048x768_1_0_0_1_n_n.lhsBatch by decide), dif_pos (show (0 : Fin S2048x256.rank) ∈ dot_S2048x256_S256x768_S2048x768_1_0_0_1_n_n.lhsNonContracting by decide)]
  rfl
/-- The column coordinate of the right operand's index is the output's column. -/
theorem prod768_col (i : S2048x768.Idx) (κ : dot_S2048x256_S256x768_S2048x768_1_0_0_1_n_n.contr.Idx) : (dot_S2048x256_S256x768_S2048x768_1_0_0_1_n_n.rhsIdx i κ 1).val = (i 1).val := by
  unfold DotDims.rhsIdx
  rw [dif_neg (show ¬(1 : Fin S256x768.rank) ∈ dot_S2048x256_S256x768_S2048x768_1_0_0_1_n_n.rhsBatch by decide), dif_pos (show (1 : Fin S256x768.rank) ∈ dot_S2048x256_S256x768_S2048x768_1_0_0_1_n_n.rhsNonContracting by decide)]
  rfl
/-- The body's product into a zero accumulator, at row p and column j, is the sum over the 256 contracted entries. -/
theorem prod768 (L : FVec Ideal S2048x256 .bf16) (W : FVec Ideal S256x768 .bf16) (p : Fin 2048) (j : Fin 768) :
    matmul dot_S2048x256_S256x768_S2048x768_1_0_0_1_n_n none L W (constant (F := Ideal) S2048x768 .f32 0x00000000#32) (ix2 p j)
      = ∑ k : Fin 256, L (ix2 p k) * W (ix2 k j) := by
  simp only [matmul]
  rw [Ideal.matmul_constant_zero_apply, ← Equiv.sum_comp (ValueIdx.contrEquiv1 dot_S2048x256_S256x768_S2048x768_1_0_0_1_n_n 256 rfl rfl).symm]
  refine Finset.sum_congr rfl fun k _ => ?_
  have hk := ValueIdx.contrEquiv1_symm_val dot_S2048x256_S256x768_S2048x768_1_0_0_1_n_n 256 rfl rfl k
  have el : dot_S2048x256_S256x768_S2048x768_1_0_0_1_n_n.lhsIdx (ix2 p j) ((ValueIdx.contrEquiv1 dot_S2048x256_S256x768_S2048x768_1_0_0_1_n_n 256 rfl rfl).symm k) = ix2 p k := funext fun a => Fin.ext (by
    match a with
    | ⟨0, _⟩ => exact prod768_row _ _
    | ⟨1, _⟩ => exact (dot_S2048x256_S256x768_S2048x768_1_0_0_1_n_n.lhsIdx_val_of_single rfl _ _).trans hk)
  have er : dot_S2048x256_S256x768_S2048x768_1_0_0_1_n_n.rhsIdx (ix2 p j) ((ValueIdx.contrEquiv1 dot_S2048x256_S256x768_S2048x768_1_0_0_1_n_n 256 rfl rfl).symm k) = ix2 k j := funext fun a => Fin.ext (by
    match a with
    | ⟨0, _⟩ => exact (dot_S2048x256_S256x768_S2048x768_1_0_0_1_n_n.rhsIdx_val_of_single rfl _ _).trans hk
    | ⟨1, _⟩ => exact prod768_col _ _)
  rw [el, er]

/-- The row coordinate of the left operand's index is the output's row. -/
theorem prod512_row (i : S2048x512.Idx) (κ : dot_S2048x256_S256x512_S2048x512_1_0_0_1_n_n.contr.Idx) : (dot_S2048x256_S256x512_S2048x512_1_0_0_1_n_n.lhsIdx i κ 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
/-- The column coordinate of the right operand's index is the output's column. -/
theorem prod512_col (i : S2048x512.Idx) (κ : dot_S2048x256_S256x512_S2048x512_1_0_0_1_n_n.contr.Idx) : (dot_S2048x256_S256x512_S2048x512_1_0_0_1_n_n.rhsIdx i κ 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl
/-- The body's product into a zero accumulator, at row p and column j, is the sum over the 256 contracted entries. -/
theorem prod512 (L : FVec Ideal S2048x256 .bf16) (W : FVec Ideal S256x512 .bf16) (p : Fin 2048) (j : Fin 512) :
    matmul dot_S2048x256_S256x512_S2048x512_1_0_0_1_n_n none L W (constant (F := Ideal) S2048x512 .f32 0x00000000#32) (ix2 p j)
      = ∑ k : Fin 256, L (ix2 p k) * W (ix2 k j) := by
  simp only [matmul]
  rw [Ideal.matmul_constant_zero_apply, ← Equiv.sum_comp (ValueIdx.contrEquiv1 dot_S2048x256_S256x512_S2048x512_1_0_0_1_n_n 256 rfl rfl).symm]
  refine Finset.sum_congr rfl fun k _ => ?_
  have hk := ValueIdx.contrEquiv1_symm_val dot_S2048x256_S256x512_S2048x512_1_0_0_1_n_n 256 rfl rfl k
  have el : dot_S2048x256_S256x512_S2048x512_1_0_0_1_n_n.lhsIdx (ix2 p j) ((ValueIdx.contrEquiv1 dot_S2048x256_S256x512_S2048x512_1_0_0_1_n_n 256 rfl rfl).symm k) = ix2 p k := funext fun a => Fin.ext (by
    match a with
    | ⟨0, _⟩ => exact prod512_row _ _
    | ⟨1, _⟩ => exact (dot_S2048x256_S256x512_S2048x512_1_0_0_1_n_n.lhsIdx_val_of_single rfl _ _).trans hk)
  have er : dot_S2048x256_S256x512_S2048x512_1_0_0_1_n_n.rhsIdx (ix2 p j) ((ValueIdx.contrEquiv1 dot_S2048x256_S256x512_S2048x512_1_0_0_1_n_n 256 rfl rfl).symm k) = ix2 k j := funext fun a => Fin.ext (by
    match a with
    | ⟨0, _⟩ => exact (dot_S2048x256_S256x512_S2048x512_1_0_0_1_n_n.rhsIdx_val_of_single rfl _ _).trans hk
    | ⟨1, _⟩ => exact prod512_col _ _)
  rw [el, er]

/-- The row coordinate of the left operand's index is the output's row. -/
theorem prod256_row (i : S2048x256.Idx) (κ : dot_S2048x256_S256x256_S2048x256_1_0_0_1_n_n.contr.Idx) : (dot_S2048x256_S256x256_S2048x256_1_0_0_1_n_n.lhsIdx i κ 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- The column coordinate of the right operand's index is the output's column. -/
theorem prod256_col (i : S2048x256.Idx) (κ : dot_S2048x256_S256x256_S2048x256_1_0_0_1_n_n.contr.Idx) : (dot_S2048x256_S256x256_S2048x256_1_0_0_1_n_n.rhsIdx i κ 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- The body's product into a zero accumulator, at row p and column j, is the sum over the 256 contracted entries. -/
theorem prod256 (L : FVec Ideal S2048x256 .bf16) (W : FVec Ideal S256x256 .bf16) (p : Fin 2048) (j : Fin 256) :
    matmul dot_S2048x256_S256x256_S2048x256_1_0_0_1_n_n none L W (constant (F := Ideal) S2048x256 .f32 0x00000000#32) (ix2 p j)
      = ∑ k : Fin 256, L (ix2 p k) * W (ix2 k j) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p j) ((ValueIdx.contrEquiv1 dot_S2048x256_S256x256_S2048x256_1_0_0_1_n_n 256 rfl rfl).symm k) = ix2 p k := funext fun a => Fin.ext (by
    match a with
    | ⟨0, _⟩ => exact prod256_row _ _
    | ⟨1, _⟩ => exact (dot_S2048x256_S256x256_S2048x256_1_0_0_1_n_n.lhsIdx_val_of_single rfl _ _).trans hk)
  have er : dot_S2048x256_S256x256_S2048x256_1_0_0_1_n_n.rhsIdx (ix2 p j) ((ValueIdx.contrEquiv1 dot_S2048x256_S256x256_S2048x256_1_0_0_1_n_n 256 rfl rfl).symm k) = ix2 k j := funext fun a => Fin.ext (by
    match a with
    | ⟨0, _⟩ => exact (dot_S2048x256_S256x256_S2048x256_1_0_0_1_n_n.rhsIdx_val_of_single rfl _ _).trans hk
    | ⟨1, _⟩ => exact prod256_col _ _)
  rw [el, er]

/-- Columns `o … o + 255` of a [2048, 768] value, read at (p, q): column `o + q`. -/
theorem cols768 (y : FVec Ideal S2048x768 .f32) (o : Nat) (ho : o + 256 ≤ 768) (h : S2048x768.Slices ![0, o] S2048x256)
    (p : Fin 2048) (q : Fin 256) :
    extractStridedSlice S2048x256 ![0, o] y h (ix2 p q) = y (ix2 p (Gru.col 768 o ho q)) :=
  extractStridedSlice_apply ![0, o] y h (ix2 p q) (ix2 p (Gru.col 768 o ho q)) (fun a => match a with
    | ⟨0, _⟩ => by show p.val = 0 + p.val; omega
    | ⟨1, _⟩ => by show o + q.val = o + q.val; rfl)

/-- Columns `o … o + 255` of a [2048, 512] value, read at (p, q): column `o + q`. -/
theorem cols512 (y : FVec Ideal S2048x512 .f32) (o : Nat) (ho : o + 256 ≤ 512) (h : S2048x512.Slices ![0, o] S2048x256)
    (p : Fin 2048) (q : Fin 256) :
    extractStridedSlice S2048x256 ![0, o] y h (ix2 p q) = y (ix2 p (Gru.col 512 o ho q)) :=
  extractStridedSlice_apply ![0, o] y h (ix2 p q) (ix2 p (Gru.col 512 o ho q)) (fun a => match a with
    | ⟨0, _⟩ => by show p.val = 0 + p.val; omega
    | ⟨1, _⟩ => by show o + q.val = o + q.val; rfl)

/-- Entries `o … o + 255` of the one row [1, 512], spread over 2048 rows, read at (p, q): entry `o + q` of the row. -/
theorem biasHalf (v : FVec Ideal S1x512 .f32) (o : Nat) (ho : o + 256 ≤ 512) (h : S1x512.Slices ![0, o] S1x256)
    (hb : S1x256.Broadcasts S2048x256) (p : Fin 2048) (q : Fin 256) :
    broadcastTo S2048x256 (extractStridedSlice S1x256 ![0, o] v h) hb (ix2 p q) = v (ix2 (0 : Fin 1) (Gru.col 512 o ho q)) :=
  (broadcastTo_1b_ab_apply (extractStridedSlice S1x256 ![0, o] v h) hb p q).trans
    (extractStridedSlice_apply ![0, o] v h (ix2 (0 : Fin 1) q) (ix2 (0 : Fin 1) (Gru.col 512 o ho q)) (fun a => match a with
      | ⟨0, _⟩ => by show (0 : Nat) = 0 + 0; rfl
      | ⟨1, _⟩ => by show o + q.val = o + q.val; rfl))

variable (x0 x1 : FVec Ideal S2048x256 .f32) (x2 : FVec Ideal S256x768 .bf16) (x3 : FVec Ideal S256x512 .bf16)
  (x4 : FVec Ideal S256x256 .bf16) (x5 : FVec Ideal S1x512 .f32) (x6 : FVec Ideal S1x256 .f32)

/-- The x block against column j of the three matrices side by side. -/
theorem xprod_apply (p : Fin 2048) (o : Nat) (ho : o + 256 ≤ 768) (q : Fin 256) :
    k0_pay2 (F := Ideal) x0 x2 (ix2 p (Gru.col 768 o ho q)) = Gru.proj x0 x2 o ho p q := by
  unfold k0_pay2
  rw [shapeCast_self]
  exact prod768 _ x2 p _

/-- The h block against column j of the two hidden-side matrices side by side. -/
theorem hprod_apply (p : Fin 2048) (o : Nat) (ho : o + 256 ≤ 512) (q : Fin 256) :
    k0_pay3 (F := Ideal) x1 x3 (ix2 p (Gru.col 512 o ho q)) = Gru.proj x1 x3 o ho p q := by
  unfold k0_pay3
  rw [shapeCast_self]
  exact prod512 _ x3 p _

/-- The update gate of the block. -/
theorem z_apply (p : Fin 2048) (q : Fin 256) :
    k0_pay5 (F := Ideal) x0 x1 x2 x3 x5 (ix2 p q)
      = Gru.gate x0 x1 x2 x3 (fun q => x5 (ix2 (0 : Fin 1) (Gru.col 512 0 (by norm_num) q))) 0 (by norm_num) (by norm_num) p q := by
  unfold k0_pay5 k0_pay4
  show Ideal.logistic (_ + _ + _) = _
  rw [cols768 _ 0 (by norm_num), cols512 _ 0 (by norm_num), biasHalf _ 0 (by norm_num), xprod_apply, hprod_apply, shapeCast_self]
  rfl

/-- The reset gate of the block, as the candidate's product reads it. -/
theorem r_apply (p : Fin 2048) (q : Fin 256) :
    Ideal.logistic (extractStridedSlice S2048x256 ![0, 256] (k0_pay2 (F := Ideal) x0 x2) slices_S2048x768_o0_256_S2048x256 (ix2 p q)
        + extractStridedSlice S2048x256 ![0, 256] (k0_pay3 (F := Ideal) x1 x3) slices_S2048x512_o0_256_S2048x256 (ix2 p q)
        + broadcastTo S2048x256 (extractStridedSlice S1x256 ![0, 256] (k0_pay4 (F := Ideal) x5) slices_S1x512_o0_256_S1x256) broadcasts_S1x256_S2048x256 (ix2 p q))
      = Gru.gate x0 x1 x2 x3 (fun q => x5 (ix2 (0 : Fin 1) (Gru.col 512 256 (by norm_num) q))) 256 (by norm_num) (by norm_num) p q := by
  unfold k0_pay4
  rw [cols768 _ 256 (by norm_num), cols512 _ 256 (by norm_num), biasHalf _ 256 (by norm_num), xprod_apply, hprod_apply, shapeCast_self]
  rfl

/-- The candidate state of the block. -/
theorem cand_apply (p : Fin 2048) (q : Fin 256) :
    k0_pay6 (F := Ideal) x0 x1 x2 x3 x4 x5 x6 (ix2 p q)
      = Gru.cand x0 x1 x2 x3 x4 (fun q => x5 (ix2 (0 : Fin 1) (Gru.col 512 256 (by norm_num) q))) (fun q => x6 (ix2 (0 : Fin 1) q)) p q := by
  unfold k0_pay6
  show Ideal.tanh (_ + _ + _) = _
  rw [cols768 _ 512 (by norm_num), xprod_apply, shapeCast_self, prod256, shapeCast_self, broadcastTo_1b_ab_apply]
  unfold Gru.cand
  refine congrArg Ideal.tanh (congrArg₂ (· + ·) (congrArg₂ (· + ·) rfl ?_) rfl)
  refine Finset.sum_congr rfl fun k _ => ?_
  refine congrArg (· * x4 (ix2 k q)) ?_
  rw [truncf_apply, mulf_apply]
  exact congrArg (· * x1 (ix2 p k)) (r_apply x0 x1 x2 x3 x5 p k)

/-- The output block after the body, at row p and column q, is the cell of the input blocks there. -/
theorem blockOut_apply (p : Fin 2048) (q : Fin 256) :
    Frame.blockOut (F := Ideal) x0 x1 x2 x3 x4 x5 x6 (ix2 p q)
      = Gru.cell x0 x1 x2 x3 x4 (fun q => x5 (ix2 (0 : Fin 1) (Gru.col 512 0 (by norm_num) q)))
          (fun q => x5 (ix2 (0 : Fin 1) (Gru.col 512 256 (by norm_num) q))) (fun q => x6 (ix2 (0 : Fin 1) q)) p q := by
  unfold Frame.blockOut
  rw [View.canon_unit_zero hz]
  simp only [View.ld_unit_zero (S := S2048x256) hz, View.ld_unit_zero (S := S256x768) hz, View.ld_unit_zero (S := S256x512) hz,
    View.ld_unit_zero (S := S256x256) hz, View.ld_unit_zero (S := S1x512) hz, View.ld_unit_zero (S := S1x256) hz]
  unfold k0_pay1 k0_pay7 k0_pay8
  show k0_pay5 (F := Ideal) x0 x1 x2 x3 x5 (ix2 p q) * x1 (ix2 p q)
      + (Gru.one - k0_pay5 (F := Ideal) x0 x1 x2 x3 x5 (ix2 p q)) * k0_pay6 (F := Ideal) x0 x1 x2 x3 x4 x5 x6 (ix2 p q) = _
  rw [z_apply, cand_apply]
  rfl

end Cert.KernelIdeal.AsCell

end
-- ==== Proof.GruWhole.lean ====
/-
  The GRU cell over the whole batch, as one function of the eleven argument arrays.

  The three input-side weight matrices are laid side by side into one [256, 768] matrix and the two hidden-side ones
  into one [256, 512] matrix, in the order update, reset, candidate; each bias is read by its column. The result at
  (R, q) is the cell of these at row R, column q.
-/
import proofs.«141474_j28389733827226_2_alg».proof.Proof.GruCell
import Idealize.ShloMosaic.PureOps.ShapeOps

noncomputable section

namespace Cert.Gru

open Idealize.ShloMosaic Idealize.ShloMosaic.ValueIdx

theorem side3 : Shape.Concatenates [(⟨2, ![256, 256]⟩ : Shape), ⟨2, ![256, 256]⟩, ⟨2, ![256, 256]⟩] ⟨2, ![256, 768]⟩ 1 := by decide
theorem side2 : Shape.Concatenates [(⟨2, ![256, 256]⟩ : Shape), ⟨2, ![256, 256]⟩] ⟨2, ![256, 512]⟩ 1 := by decide

/-- The new hidden state of the whole batch from (x, h_prev, Wz, Uz, bz, Wr, Ur, br, Wh, Uh, bh), in that order. -/
def whole (a0 a1 : (⟨2, ![65536, 256]⟩ : Shape).Idx → EReal) (a2 a3 : (⟨2, ![256, 256]⟩ : Shape).Idx → EReal)
    (a4 : (⟨1, ![256]⟩ : Shape).Idx → EReal) (a5 a6 : (⟨2, ![256, 256]⟩ : Shape).Idx → EReal)
    (a7 : (⟨1, ![256]⟩ : Shape).Idx → EReal) (a8 a9 : (⟨2, ![256, 256]⟩ : Shape).Idx → EReal)
    (a10 : (⟨1, ![256]⟩ : Shape).Idx → EReal) : (⟨2, ![65536, 256]⟩ : Shape).Idx → EReal :=
  fun i => cell a0 a1
    (concatenate ⟨2, ![256, 768]⟩ 1 [⟨⟨2, ![256, 256]⟩, a2⟩, ⟨⟨2, ![256, 256]⟩, a5⟩, ⟨⟨2, ![256, 256]⟩, a8⟩] side3)
    (concatenate ⟨2, ![256, 512]⟩ 1 [⟨⟨2, ![256, 256]⟩, a3⟩, ⟨⟨2, ![256, 256]⟩, a6⟩] side2)
    a9 (fun q => a4 (ix1 q)) (fun q => a7 (ix1 q)) (fun q => a10 (ix1 q)) (i 0) (i 1)

end Cert.Gru

end
-- ==== Proof.KernelIsCell.lean ====
/-
  The kernel's result array is the GRU cell of the whole batch.

  The region finds the five laid-out operands at: the three input-side matrices side by side, the two hidden-side
  matrices side by side, the candidate's hidden-side matrix (the narrower float format changes nothing), the update
  and reset biases end to end as one row, the candidate's bias as one row. Point t of the grid reads rows
  2048·t … 2048·t + 2047 of x and of h_prev and those five operands whole, and writes rows 2048·t … 2048·t + 2047 of
  the result. What it writes is the cell of its blocks, and the cell at a row reads only that row of x and h_prev:
  so each write-back is a block of the cell of the whole arrays. The 32 blocks cover all 65536 rows (row r lies in
  block r / 2048), so the result array ends as that cell.
-/
import proofs.«141474_j28389733827226_2_alg».proof.Proof.IdealFrame
import proofs.«141474_j28389733827226_2_alg».proof.Proof.BlockIsCell
import proofs.«141474_j28389733827226_2_alg».proof.Proof.GruWhole
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Frame
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The laid-out operands as the region finds them -/

theorem wx_eq (c : Dev nD) : (V m c main_v1 : S256x768.Idx → EReal)
    = concatenate S256x768 1 [⟨S256x256, m ((c : Thread nD τ).loc main_arg2)⟩, ⟨S256x256, m ((c : Thread nD τ).loc main_arg5)⟩, ⟨S256x256, m ((c : Thread nD τ).loc main_arg8)⟩] concatenates_S256x256_S256x256_S256x256_S256x768_d1 := by
  dsimp only [V, hostOps0]; after_results <;> rfl

theorem uzr_eq (c : Dev nD) : (V m c main_v3 : S256x512.Idx → EReal)
    = concatenate S256x512 1 [⟨S256x256, m ((c : Thread nD τ).loc main_arg3)⟩, ⟨S256x256, m ((c : Thread nD τ).loc main_arg6)⟩] concatenates_S256x256_S256x256_S256x512_d1 := by
  dsimp only [V, hostOps0]; after_results <;> rfl

theorem uh_eq (c : Dev nD) : (V m c main_v4 : S256x256.Idx → EReal) = m ((c : Thread nD τ).loc main_arg9) := by
  dsimp only [V, hostOps0]; after_results <;> rfl

theorem bzr_eq (c : Dev nD) : (V m c main_v6 : S1x512.Idx → EReal)
    = broadcastInDim S1x512 ![1] bcast_S512_S1x512_1 (concatenate S512 0 [⟨S256, m ((c : Thread nD τ).loc main_arg4)⟩, ⟨S256, m ((c : Thread nD τ).loc main_arg7)⟩] concatenates_S256_S256_S512_d0) := by
  dsimp only [V, hostOps0]; after_results <;> rfl

theorem bh_eq (c : Dev nD) : (V m c main_v7 : S1x256.Idx → EReal)
    = broadcastInDim S1x256 ![1] bcast_S256_S1x256_1 (m ((c : Thread nD τ).loc main_arg10)) := by
  dsimp only [V, hostOps0]; after_results <;> rfl

/-- Entry q of the first half of the joined bias row is the update bias at q. -/
theorem bz_read (c : Dev nD) (q : Fin 256) :
    (V m c main_v6 : S1x512.Idx → EReal) (ix2 (0 : Fin 1) (Gru.col 512 0 (by norm_num) q)) = (m ((c : Thread nD τ).loc main_arg4) : S256.Idx → EReal) (ix1 q) := by
  rw [bzr_eq]
  refine (broadcastInDim_apply ![1] bcast_S512_S1x512_1 _ (ix2 (0 : Fin 1) (Gru.col 512 0 (by norm_num) q)) (ix1 (Gru.col 512 0 (by norm_num) q)) (fun a => ?_)).trans ?_
  · match a with
    | ⟨0, _⟩ =>
      show (Gru.col 512 0 (by norm_num) q).val = if (512 : Nat) = 1 then 0 else (Gru.col 512 0 (by norm_num) q).val
      rw [if_neg (by norm_num)]
  · exact concatenate_pair_apply_left (t := S512) (s₁ := S256) (s₂ := S256) (0 : Fin 1) _ _ concatenates_S256_S256_S512_d0 (ix1 (Gru.col 512 0 (by norm_num) q)) rfl (ix1 q)
      (fun b => match b with | ⟨0, _⟩ => by show q.val = 0 + q.val; omega)

/-- Entry q of the second half of the joined bias row is the reset bias at q. -/
theorem br_read (c : Dev nD) (q : Fin 256) :
    (V m c main_v6 : S1x512.Idx → EReal) (ix2 (0 : Fin 1) (Gru.col 512 256 (by norm_num) q)) = (m ((c : Thread nD τ).loc main_arg7) : S256.Idx → EReal) (ix1 q) := by
  rw [bzr_eq]
  refine (broadcastInDim_apply ![1] bcast_S512_S1x512_1 _ (ix2 (0 : Fin 1) (Gru.col 512 256 (by norm_num) q)) (ix1 (Gru.col 512 256 (by norm_num) q)) (fun a => ?_)).trans ?_
  · match a with
    | ⟨0, _⟩ =>
      show (Gru.col 512 256 (by norm_num) q).val = if (512 : Nat) = 1 then 0 else (Gru.col 512 256 (by norm_num) q).val
      rw [if_neg (by norm_num)]
  · exact concatenate_pair_apply_right (t := S512) (s₁ := S256) (s₂ := S256) (0 : Fin 1) _ _ concatenates_S256_S256_S512_d0 (ix1 (Gru.col 512 256 (by norm_num) q)) rfl rfl (ix1 q)
      (fun b hb => match b, hb with | ⟨0, _⟩, hb => (hb rfl).elim)
      (by show q.val + 256 = 256 + q.val; omega)

/-- Entry q of the candidate's bias row is the candidate's bias at q. -/
theorem bh_read (c : Dev nD) (q : Fin 256) :
    (V m c main_v7 : S1x256.Idx → EReal) (ix2 (0 : Fin 1) q) = (m ((c : Thread nD τ).loc main_arg10) : S256.Idx → EReal) (ix1 q) := by
  rw [bh_eq]
  refine broadcastInDim_apply ![1] bcast_S256_S1x256_1 _ (ix2 (0 : Fin 1) q) (ix1 q) (fun a => ?_)
  match a with
  | ⟨0, _⟩ =>
    show q.val = if (256 : Nat) = 1 then 0 else q.val
    rw [if_neg (by norm_num)]

/-! ## The blocks a point works on -/

/-- The block index of x, of h_prev and of the result at point t is (t, 0): rows 2048·t onwards, all columns. -/
theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 2) = t.val ∧ win0_1.index t (1 : Fin 2) = 0 :=
  (by decide +kernel : ∀ t : Fin grid0.N, _)
theorem idx_out : ∀ t : Fin cfg0.N, win0_7.index t (0 : Fin 2) = t.val ∧ win0_7.index t (1 : Fin 2) = 0 :=
  (by decide +kernel : ∀ t : Fin grid0.N, _)

/-! The five laid-out operands' block index is (0, 0) at every point: each is read whole. -/
theorem idx_in2 : ∀ t : Fin cfg0.N, win0_2.index t (0 : Fin 2) = 0 ∧ win0_2.index t (1 : Fin 2) = 0 :=
  (by decide +kernel : ∀ t : Fin grid0.N, _)
theorem idx_in3 : ∀ t : Fin cfg0.N, win0_3.index t (0 : Fin 2) = 0 ∧ win0_3.index t (1 : Fin 2) = 0 :=
  (by decide +kernel : ∀ t : Fin grid0.N, _)
theorem idx_in4 : ∀ t : Fin cfg0.N, win0_4.index t (0 : Fin 2) = 0 ∧ win0_4.index t (1 : Fin 2) = 0 :=
  (by decide +kernel : ∀ t : Fin grid0.N, _)
theorem idx_in5 : ∀ t : Fin cfg0.N, win0_5.index t (0 : Fin 2) = 0 ∧ win0_5.index t (1 : Fin 2) = 0 :=
  (by decide +kernel : ∀ t : Fin grid0.N, _)
theorem idx_in6 : ∀ t : Fin cfg0.N, win0_6.index t (0 : Fin 2) = 0 ∧ win0_6.index t (1 : Fin 2) = 0 :=
  (by decide +kernel : ∀ t : Fin grid0.N, _)

/-! Row p of the x block (of the h_prev block) at point t is row 2048·t + p of x (of h_prev). -/
theorem iblk_rows0 (c : Dev nD) (t : Fin cfg0.N) (p : Fin 2048) (k : Fin 256) (R : Fin 65536) (hR : R.val = t.val * 2048 + p.val) :
    (iblk m c 0 t : S2048x256.Idx → EReal) (ix2 p k) = (m ((c : Thread nD τ).loc main_arg0) : S65536x256.Idx → EReal) (ix2 R k) := by
  have e := idx_in0 t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = R.val; rw [e.1, hR]; omega
  | ⟨1, _⟩ => show win0_0.index t (1 : Fin 2) * 256 + 1 * k.val = k.val; rw [e.2]; omega
theorem iblk_rows1 (c : Dev nD) (t : Fin cfg0.N) (p : Fin 2048) (k : Fin 256) (R : Fin 65536) (hR : R.val = t.val * 2048 + p.val) :
    (iblk m c 1 t : S2048x256.Idx → EReal) (ix2 p k) = (m ((c : Thread nD τ).loc main_arg1) : S65536x256.Idx → EReal) (ix2 R k) := by
  have e := idx_in1 t
  unfold iblk
  rw [View.read_apply]
  show V m c main_arg1 _ = _
  rw [V_main_arg1]
  refine congrArg _ (funext fun a => Fin.ext ?_)
  match a with
  | ⟨0, _⟩ => show win0_1.index t (0 : Fin 2) * 2048 + 1 * p.val = R.val; rw [e.1, hR]; omega
  | ⟨1, _⟩ => show win0_1.index t (1 : Fin 2) * 256 + 1 * k.val = k.val; rw [e.2]; omega

/-! Each laid-out operand's block is the operand. -/
theorem iblk_whole2 (c : Dev nD) (t : Fin cfg0.N) : (iblk m c 2 t : S256x768.Idx → EReal) = V m c main_v1 := by
  have e := idx_in2 t
  unfold iblk
  funext y
  rw [View.read_apply]
  show V m c main_v1 _ = V m c main_v1 y
  refine congrArg _ (funext fun a => Fin.ext ?_)
  match a with
  | ⟨0, _⟩ => show win0_2.index t (0 : Fin 2) * 256 + 1 * (y 0).val = (y 0).val; rw [e.1]; omega
  | ⟨1, _⟩ => show win0_2.index t (1 : Fin 2) * 768 + 1 * (y 1).val = (y 1).val; rw [e.2]; omega
theorem iblk_whole3 (c : Dev nD) (t : Fin cfg0.N) : (iblk m c 3 t : S256x512.Idx → EReal) = V m c main_v3 := by
  have e := idx_in3 t
  unfold iblk
  funext y
  rw [View.read_apply]
  show V m c main_v3 _ = V m c main_v3 y
  refine congrArg _ (funext fun a => Fin.ext ?_)
  match a with
  | ⟨0, _⟩ => show win0_3.index t (0 : Fin 2) * 256 + 1 * (y 0).val = (y 0).val; rw [e.1]; omega
  | ⟨1, _⟩ => show win0_3.index t (1 : Fin 2) * 512 + 1 * (y 1).val = (y 1).val; rw [e.2]; omega
theorem iblk_whole4 (c : Dev nD) (t : Fin cfg0.N) : (iblk m c 4 t : S256x256.Idx → EReal) = V m c main_v4 := by
  have e := idx_in4 t
  unfold iblk
  funext y
  rw [View.read_apply]
  show V m c main_v4 _ = V m c main_v4 y
  refine congrArg _ (funext fun a => Fin.ext ?_)
  match a with
  | ⟨0, _⟩ => show win0_4.index t (0 : Fin 2) * 256 + 1 * (y 0).val = (y 0).val; rw [e.1]; omega
  | ⟨1, _⟩ => show win0_4.index t (1 : Fin 2) * 256 + 1 * (y 1).val = (y 1).val; rw [e.2]; omega
theorem iblk_whole5 (c : Dev nD) (t : Fin cfg0.N) : (iblk m c 5 t : S1x512.Idx → EReal) = V m c main_v6 := by
  have e := idx_in5 t
  unfold iblk
  funext y
  rw [View.read_apply]
  show V m c main_v6 _ = V m c main_v6 y
  refine congrArg _ (funext fun a => Fin.ext ?_)
  match a with
  | ⟨0, _⟩ => show win0_5.index t (0 : Fin 2) * 1 + 1 * (y 0).val = (y 0).val; rw [e.1]; omega
  | ⟨1, _⟩ => show win0_5.index t (1 : Fin 2) * 512 + 1 * (y 1).val = (y 1).val; rw [e.2]; omega
theorem iblk_whole6 (c : Dev nD) (t : Fin cfg0.N) : (iblk m c 6 t : S1x256.Idx → EReal) = V m c main_v7 := by
  have e := idx_in6 t
  unfold iblk
  funext y
  rw [View.read_apply]
  show V m c main_v7 _ = V m c main_v7 y
  refine congrArg _ (funext fun a => Fin.ext ?_)
  match a with
  | ⟨0, _⟩ => show win0_6.index t (0 : Fin 2) * 1 + 1 * (y 0).val = (y 0).val; rw [e.1]; omega
  | ⟨1, _⟩ => show win0_6.index t (1 : Fin 2) * 256 + 1 * (y 1).val = (y 1).val; rw [e.2]; omega

/-! ## What a point writes back -/

/-- The result: the cell of the whole batch, of the eleven arguments as launched. -/
abbrev result (c : Dev nD) : S65536x256.Idx → EReal :=
  Gru.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Point t writes back block t of the result. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after_out]
  funext j
  obtain ⟨p, q, rfl⟩ : ∃ (p : Fin 2048) (q : Fin 256), j = ix2 p q := ⟨j 0, j 1, eq_ix2 j⟩
  have hN : t.val < 32 := lt_of_lt_of_eq t.isLt (show cfg0.N = 32 from N_0)
  have hp : p.val < 2048 := p.isLt
  obtain ⟨e0, e1⟩ := idx_out t
  have he : ((cfg0.win 7).blk t).view.emb (ix2 p q) = ix2 (⟨t.val * 2048 + p.val, by omega⟩ : Fin 65536) q := funext fun a => Fin.ext (by
    match a with
    | ⟨0, _⟩ => show win0_7.index t (0 : Fin 2) * 2048 + 1 * p.val = t.val * 2048 + p.val; rw [e0]; omega
    | ⟨1, _⟩ => show win0_7.index t (1 : Fin 2) * 256 + 1 * q.val = q.val; rw [e1]; omega)
  show blockOut (F := Ideal) (iblk m c 0 t) (iblk m c 1 t) (iblk m c 2 t) (iblk m c 3 t) (iblk m c 4 t) (iblk m c 5 t) (iblk m c 6 t) (ix2 p q)
      = result m c (((cfg0.win 7).blk t).view.emb (ix2 p q))
  rw [he, AsCell.blockOut_apply]
  refine (Gru.cell_congr_row (m ((c : Thread nD τ).loc main_arg0)) (m ((c : Thread nD τ).loc main_arg1)) (iblk m c 0 t) (iblk m c 1 t) _ _ _ _ _ _ ⟨t.val * 2048 + p.val, by omega⟩ p
    (fun k => iblk_rows0 m c t p k _ rfl) (fun k => iblk_rows1 m c t p k _ rfl) q).trans ?_
  exact Gru.cell_congr _ _ _ _ _ _ _ _ _ _ _ _ _ _
    ((iblk_whole2 m c t).trans (wx_eq m c)) ((iblk_whole3 m c t).trans (uzr_eq m c)) ((iblk_whole4 m c t).trans (uh_eq m c))
    (funext fun q' => (congrFun (iblk_whole5 m c t) _).trans (bz_read m c q'))
    (funext fun q' => (congrFun (iblk_whole5 m c t) _).trans (br_read m c q'))
    (funext fun q' => (congrFun (iblk_whole6 m c t) _).trans (bh_read m c q'))
    _ q

/-! ## The blocks cover the result -/

/-- An index of the result lies in point t's block iff each coordinate is in the block's range on its axis. -/
theorem mem_blk (t : Fin cfg0.N) (i : S65536x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v8).slice (win0_7.rect t)).set ↔ _
  rw [View.set_slice_whole, Rect.mem_set_unit]
  exact Iff.rfl

/-- Row r of the result lies in the block of point r / 2048, which is written back. -/
theorem cover (i : S65536x256.Idx) : ∃ t : Fin cfg0.N, (cfg0.win 7).flush t = true ∧ i ∈ ((cfg0.win 7).blk t).view.set := by
  have hi0 : (i 0).val < 65536 := idx2_lt0 i
  have hi1 : (i 1).val < 256 := idx2_lt1 i
  have hN : cfg0.N = 32 := N_0
  have hlt : (i 0).val / 2048 < cfg0.N := by rw [hN]; omega
  obtain ⟨e0, e1⟩ := idx_out ⟨(i 0).val / 2048, hlt⟩
  refine ⟨⟨(i 0).val / 2048, hlt⟩, flush0_7 _, ?_⟩
  rw [mem_blk]
  intro a
  match a with
  | ⟨0, _⟩ =>
    show win0_7.index ⟨(i 0).val / 2048, hlt⟩ (0 : Fin 2) * 2048 ≤ (i 0).val ∧ (i 0).val < win0_7.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_7.index ⟨(i 0).val / 2048, hlt⟩ (1 : Fin 2) * 256 ≤ (i 1).val ∧ (i 1).val < win0_7.index ⟨(i 0).val / 2048, hlt⟩ (1 : Fin 2) * 256 + 256
    rw [e1]
    omega

/-- So the result array ends holding the cell of the whole batch. -/
theorem final (c : Dev nD) : (dats m 0 c).arrAt 7 cfg0.N = result m c :=
  (dats m 0 c).arrAt_eq_of_cover 7 (result m c) (fun t _ => flushed_eq m c t) cover

/-! ## The run, read -/

/-- Every weakly fair execution of the program terminates with the result array at the cell of the whole batch and
    the eleven arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 7).trans (final m c), args_kept m (dats m) (A_eq m) r h c⟩) (run_main m ρ)

end Cert.KernelIdeal.Whole

end
-- ==== Proof.RefIsCell.lean ====
/-
  The reference program's result, entry by entry, is the GRU cell of its arguments.

  The reference multiplies x by the three input-side matrices laid side by side and cuts the product into its three
  column ranges, does the same for h_prev and the two hidden-side matrices, spells the logistic function as
  1 / (1 + e^(−t)), and broadcasts each bias over the rows. Reading each operation at an index: a product is the sum
  over the 256 contracted entries, a column range shifts the column, a broadcast forgets the row.
-/
import proofs.«141474_j28389733827226_2_alg».proof.Proof.Gen.ReferenceIdeal.Read
import proofs.«141474_j28389733827226_2_alg».proof.Proof.GruCell

noncomputable section

open scoped BigOperators

namespace Cert.ReferenceIdeal.AsCell

open Cert.ReferenceIdeal Cert.ReferenceIdeal.Gen Cert.ReferenceIdeal.Read Idealize.ShloMosaic Idealize.ShloMosaic.ValueIdx

/-- The literal 1.0 is the number one. -/
theorem one_eq : Ideal.ofBits .f32 0x3F800000#32 = (1 : EReal) := by
  simp [Ideal.ofBits, Ideal.ieee, -EReal.coe_mul]; norm_num

variable (x0 x1 : (⟨S65536x256, .f32⟩ : BufTy).Contents (Elt Ideal)) (x2 x3 : (⟨S256x256, .f32⟩ : BufTy).Contents (Elt Ideal))
  (x4 : (⟨S256, .f32⟩ : BufTy).Contents (Elt Ideal)) (x5 x6 : (⟨S256x256, .f32⟩ : BufTy).Contents (Elt Ideal))
  (x7 : (⟨S256, .f32⟩ : BufTy).Contents (Elt Ideal)) (x8 x9 : (⟨S256x256, .f32⟩ : BufTy).Contents (Elt Ideal))
  (x10 : (⟨S256, .f32⟩ : BufTy).Contents (Elt Ideal))

/-- x against columns `o … o + 255` of the three matrices side by side: the product read at column `o + q`. -/
theorem xproj_eq (o : Nat) (h : o + 256 ≤ 768) (R : Fin 65536) (q : Fin 256) (i : S65536x768.Idx)
    (hi0 : (i 0).val = R.val) (hi1 : (i 1).val = o + q.val) :
    val_main_v1 (F := Ideal) x0 x2 x5 x8 i = Gru.proj x0 (val_main_v0 (F := Ideal) x2 x5 x8) o h R q := by
  rw [val_main_v1_apply]
  unfold Gru.proj
  refine Finset.sum_congr rfl fun k _ => ?_
  have el : lidx_main_v1 i k = ix2 R k := funext fun a => Fin.ext (by
    match a with
    | ⟨0, _⟩ => exact hi0
    | ⟨1, _⟩ => rfl)
  have er : ridx_main_v1 i k = ix2 k (Gru.col 768 o h q) := funext fun a => Fin.ext (by
    match a with
    | ⟨0, _⟩ => rfl
    | ⟨1, _⟩ => exact hi1)
  rw [el, er]

/-- h_prev against columns `o … o + 255` of the two hidden-side matrices side by side. -/
theorem hproj_eq (o : Nat) (h : o + 256 ≤ 512) (R : Fin 65536) (q : Fin 256) (i : S65536x512.Idx)
    (hi0 : (i 0).val = R.val) (hi1 : (i 1).val = o + q.val) :
    val_main_v6 (F := Ideal) x1 x3 x6 i = Gru.proj x1 (val_main_v5 (F := Ideal) x3 x6) o h R q := by
  rw [val_main_v6_apply]
  unfold Gru.proj
  refine Finset.sum_congr rfl fun k _ => ?_
  have el : lidx_main_v6 i k = ix2 R k := funext fun a => Fin.ext (by
    match a with
    | ⟨0, _⟩ => exact hi0
    | ⟨1, _⟩ => rfl)
  have er : ridx_main_v6 i k = ix2 k (Gru.col 512 o h q) := funext fun a => Fin.ext (by
    match a with
    | ⟨0, _⟩ => rfl
    | ⟨1, _⟩ => exact hi1)
  rw [el, er]

/-- A bias broadcast over the rows, read at (R, q), is its entry q. -/
theorem bias_idx (R : Fin 65536) (q : Fin 256) : idx_main_v10 (idx_main_v11 (ix2 R q)) = ix1 q :=
  funext fun a => Fin.ext (by match a with | ⟨0, _⟩ => rfl)

/-- The update gate. -/
theorem z_eq (R : Fin 65536) (q : Fin 256) :
    val_main_v18 (F := Ideal) x0 x1 x2 x3 x4 x5 x6 x8 (ix2 R q)
      = Gru.gate x0 x1 (val_main_v0 (F := Ideal) x2 x5 x8) (val_main_v5 (F := Ideal) x3 x6) (fun q => x4 (ix1 q)) 0 (by norm_num) (by norm_num) R q := by
  rw [val_main_v18_apply, val_main_v17_apply, val_main_cst_0_apply, val_main_v16_apply, val_main_v15_apply, val_main_cst_apply,
    val_main_v14_apply, val_main_v13_apply, val_main_v12_apply, val_main_v11_apply, val_main_v10_apply, val_main_v9_apply,
    val_main_v2_apply, val_main_v7_apply,
    xproj_eq x0 x2 x5 x8 0 (by norm_num) R q _ rfl (by show q.val = 0 + q.val; omega),
    hproj_eq x1 x3 x6 0 (by norm_num) R q _ rfl (by show q.val = 0 + q.val; omega), bias_idx]
  unfold Gru.gate Ideal.logistic
  simp only [Ideal.ofBits_def, Ideal.hostDivf_def, Ideal.addf_def, Ideal.hostUnary_exp_def, Ideal.hostNegf_def, Ideal.negf_def, one_eq]

/-- The reset gate. -/
theorem r_eq (R : Fin 65536) (q : Fin 256) :
    val_main_v28 (F := Ideal) x0 x1 x2 x3 x5 x6 x7 x8 (ix2 R q)
      = Gru.gate x0 x1 (val_main_v0 (F := Ideal) x2 x5 x8) (val_main_v5 (F := Ideal) x3 x6) (fun q => x7 (ix1 q)) 256 (by norm_num) (by norm_num) R q := by
  rw [val_main_v28_apply, val_main_v27_apply, val_main_cst_2_apply, val_main_v26_apply, val_main_v25_apply, val_main_cst_1_apply,
    val_main_v24_apply, val_main_v23_apply, val_main_v22_apply, val_main_v21_apply, val_main_v20_apply, val_main_v19_apply,
    val_main_v3_apply, val_main_v8_apply,
    xproj_eq x0 x2 x5 x8 256 (by norm_num) R q _ rfl rfl,
    hproj_eq x1 x3 x6 256 (by norm_num) R q _ rfl rfl,
    show idx_main_v20 (idx_main_v21 (ix2 R q)) = ix1 q from funext fun a => Fin.ext (by match a with | ⟨0, _⟩ => rfl)]
  unfold Gru.gate Ideal.logistic
  simp only [Ideal.ofBits_def, Ideal.hostDivf_def, Ideal.addf_def, Ideal.hostUnary_exp_def, Ideal.hostNegf_def, Ideal.negf_def, one_eq]

/-- The candidate state. -/
theorem cand_eq (R : Fin 65536) (q : Fin 256) :
    val_main_v35 (F := Ideal) x0 x1 x2 x3 x5 x6 x7 x8 x9 x10 (ix2 R q)
      = Gru.cand x0 x1 (val_main_v0 (F := Ideal) x2 x5 x8) (val_main_v5 (F := Ideal) x3 x6) x9 (fun q => x7 (ix1 q)) (fun q => x10 (ix1 q)) R q := by
  rw [val_main_v35_apply, val_main_v34_apply, val_main_v33_apply, val_main_v32_apply, val_main_v31_apply, val_main_v4_apply,
    xproj_eq x0 x2 x5 x8 512 (by norm_num) R q _ rfl rfl, val_main_v30_apply]
  unfold Gru.cand
  have hs : (∑ k : Fin 256, val_main_v29 (F := Ideal) x0 x1 x2 x3 x5 x6 x7 x8 (lidx_main_v30 (ix2 R q) k) * x9 (ridx_main_v30 (ix2 R q) k))
      = ∑ k : Fin 256, (Gru.gate x0 x1 (val_main_v0 (F := Ideal) x2 x5 x8) (val_main_v5 (F := Ideal) x3 x6) (fun q => x7 (ix1 q)) 256 (by norm_num) (by norm_num) R k * x1 (ix2 R k)) * x9 (ix2 k q) := by
    refine Finset.sum_congr rfl fun k _ => ?_
    have el : lidx_main_v30 (ix2 R q) k = ix2 R k := funext fun a => Fin.ext (by
      match a with
      | ⟨0, _⟩ => rfl
      | ⟨1, _⟩ => rfl)
    have er : ridx_main_v30 (ix2 R q) k = ix2 k q := funext fun a => Fin.ext (by
      match a with
      | ⟨0, _⟩ => rfl
      | ⟨1, _⟩ => rfl)
    rw [el, er, val_main_v29_apply, r_eq]
    rfl
  rw [hs]
  have hb : idx_main_v32 (idx_main_v33 (ix2 R q)) = ix1 q := funext fun a => Fin.ext (by match a with | ⟨0, _⟩ => rfl)
  rw [hb]
  rfl

/-- The reference's result at row R, column q is the cell of its arguments there. -/
theorem result_apply (R : Fin 65536) (q : Fin 256) :
    val_main_v40 (F := Ideal) x0 x1 x2 x3 x4 x5 x6 x7 x8 x9 x10 (ix2 R q)
      = Gru.cell x0 x1 (val_main_v0 (F := Ideal) x2 x5 x8) (val_main_v5 (F := Ideal) x3 x6) x9
          (fun q => x4 (ix1 q)) (fun q => x7 (ix1 q)) (fun q => x10 (ix1 q)) R q := by
  rw [val_main_v40_apply, val_main_v36_apply, val_main_v39_apply, val_main_v38_apply, val_main_v37_apply, val_main_cst_3_apply,
    z_eq, cand_eq]
  rfl

end Cert.ReferenceIdeal.AsCell

end
-- ==== Proof.lean ====
/-
  A GRU cell, computed by a kernel that walks the batch 2048 rows at a time, against the same cell written with
  whole-array operations.

  Both programs lay the three input-side weight matrices side by side and the two hidden-side ones side by side,
  multiply x and h_prev by them, and read the gates out of the products' column ranges; the kernel additionally lays
  the update and reset biases end to end and reads each half back, applies the logistic function as one operation
  where the reference writes 1 / (1 + e^(−t)), and narrows its matrix operands' float format. Over the extended reals
  the narrowing is the identity and the logistic function is that quotient by definition, so both results are, entry
  by entry, the same sums, the same two functions and the same products: one function of the eleven arguments
  (Proof/GruCell.lean, Proof/GruWhole.lean). No law of arithmetic is used beyond that, so the inputs' finiteness is
  never needed.

  The three frames: the kernel's program, read at words and read at extended reals, runs its eight host operations
  and then the 32 grid points, each point's body loading seven whole blocks and storing one (Proof/BitsFrame.lean,
  Proof/IdealFrame.lean); the reference is host operations only. Proof/BlockIsCell.lean reads the body's stored value
  at an entry, Proof/KernelIsCell.lean assembles the 32 written blocks into the whole result, Proof/RefIsCell.lean
  reads the reference's result at an entry. The idealization rewrote nothing, so what it must preserve is trivial.
-/
import proofs.«141474_j28389733827226_2_alg».proof.Defs
import proofs.«141474_j28389733827226_2_alg».proof.Proof.Gen.Kernel
import proofs.«141474_j28389733827226_2_alg».proof.Proof.Gen.KernelIdeal
import proofs.«141474_j28389733827226_2_alg».proof.Proof.Gen.ReferenceIdeal
import proofs.«141474_j28389733827226_2_alg».proof.Proof.Gen.ReferenceIdeal.Run
import proofs.«141474_j28389733827226_2_alg».proof.Proof.Gen.ReferenceIdeal.Read
import proofs.«141474_j28389733827226_2_alg».proof.Proof.Gen.Pre_finite_inputs
import proofs.«141474_j28389733827226_2_alg».proof.Proof.BitsFrame
import proofs.«141474_j28389733827226_2_alg».proof.Proof.IdealFrame
import proofs.«141474_j28389733827226_2_alg».proof.Proof.KernelIsCell
import proofs.«141474_j28389733827226_2_alg».proof.Proof.RefIsCell
import Idealize.ShloMosaic.Adequacy
import Idealize.ShloMosaic.Init

noncomputable section

namespace Cert.Proof

open Idealize.ShloMosaic Idealize.SL.Sem Idealize.ShloMosaic.ValueIdx

theorem frame_words : Cert.frame_Kernel := fun m ρ _ => Cert.Kernel.Frame.frame m ρ

theorem frame_ideal : Cert.frame_KernelIdeal := fun m ρ _ => Cert.KernelIdeal.Frame.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the eleven arguments both programs end with the result array at the cell of the whole
    batch of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v40_eq, a0, a1, a2, a3, a4, a5, a6, a7, a8, a9, a10]
  funext i
  obtain ⟨R, q, rfl⟩ : ∃ (R : Fin 65536) (q : Fin 256), i = ix2 R q := ⟨i 0, i 1, eq_ix2 i⟩
  exact (Cert.ReferenceIdeal.AsCell.result_apply _ _ _ _ _ _ _ _ _ _ _ R q).trans rfl

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
